-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel

variable [Facts]

def fn {F : FTy → Type} [FloatOps F] (main_arg0 : FVec F S8x128x128x128 .f32) (main_arg1 : FVec F S8x128x128x128 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x128x128x128 .f32 := Host.absf main_arg1
  let main_cst_0 : FVec F S_ .f32 := constant S_ .f32 0x7F800000#32
  let main_v5 : FVec F S8x128x128x128 .f32 := broadcastInDim S8x128x128x128 ![] bcast_S_S8x128x128x128 main_cst_0
  let main_v6 : IVec S8x128x128x128 1 := cmpf .olt main_v4 main_v5
  let main_c_1 : IVec S_ 1 := constantI S_ 1 1#1
  let main_v7 : IVec S_ 1 := (fun x v => Host.reduce IntOp.andi x v reducesTo_S8x128x128x128_S_d0_1_2_3 h_S_) main_v6 main_c_1
  let main_v8 : IVec S_ 1 := andi main_v3 main_v7
  main_v8
-- ==== Kernel.lean ====
abbrev S8x128x128x128 : Shape := ⟨4, ![8, 128, 128, 128]⟩
abbrev S8x128x16384 : Shape := ⟨3, ![8, 128, 16384]⟩
abbrev S1x16x16384 : Shape := ⟨3, ![1, 16, 16384]⟩
abbrev S16x16384 : Shape := ⟨2, ![16, 16384]⟩
abbrev S16 : Shape := ⟨1, ![16]⟩
abbrev S16x1 : Shape := ⟨2, ![16, 1]⟩
abbrev S16384 : Shape := ⟨1, ![16384]⟩
abbrev S1x16384 : Shape := ⟨2, ![1, 16384]⟩
abbrev S16x16 : Shape := ⟨2, ![16, 16]⟩

abbrev nBuf : Space → Nat
  | .hbm => 6
  | .vmem => 6
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x128x16384, .f32⟩
  | .hbm, ⟨3, _⟩ => ⟨S8x128x16384, .f32⟩
  | .hbm, ⟨4, _⟩ => ⟨S8x128x16384, .f32⟩
  | .hbm, ⟨5, _⟩ => ⟨S8x128x128x128, .f32⟩
  | .local _ .vmem, ⟨0, _⟩ => ⟨S1x16x16384, .f32⟩
  | .local _ .vmem, ⟨1, _⟩ => ⟨S1x16x16384, .f32⟩
  | .local _ .vmem, ⟨2, _⟩ => ⟨S1x16x16384, .f32⟩
  | .local _ .vmem, ⟨3, _⟩ => ⟨S1x16x16384, .f32⟩
  | .local _ .vmem, ⟨4, _⟩ => ⟨S1x16x16384, .f32⟩
  | .local _ .vmem, ⟨5, _⟩ => ⟨S1x16x16384, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x128x128x128_S8x128x16384 : S8x128x128x128.ShapeCasts S8x128x16384
  inb_S1x16x16384_S1x16x16384_0_0_0 : ∀ a, (![0, 0, 0] : Fin 3 → Nat) a + S1x16x16384.size a ≤ S1x16x16384.size a
  h_S1x16x16384 : 0 < S1x16x16384.numel
  shapeCasts_S1x16x16384_S16x16384 : S1x16x16384.ShapeCasts S16x16384
  reduces_S16x16384_S16 : S16x16384.Reduces [1] S16
  shapeCasts_S16_S16x1 : S16.ShapeCasts S16x1
  broadcasts_S16x1_S16x16384 : S16x1.Broadcasts S16x16384
  reduces_S16x16384_S16384 : S16x16384.Reduces [0] S16384
  shapeCasts_S16384_S1x16384 : S16384.ShapeCasts S1x16384
  broadcasts_S1x16384_S16x16384 : S1x16384.Broadcasts S16x16384
  transposes_S16x16_p1_0_S16x16 : S16x16.Transposes [1, 0] S16x16
  shapeCasts_S16x16384_S1x16x16384 : S16x16384.ShapeCasts S1x16x16384
  shapeCasts_S8x128x16384_S8x128x128x128 : S8x128x16384.ShapeCasts S8x128x128x128
  dot_S16x16384_S16x16384_S16x16_1_1_0_0_n_n_wf : DotDims.WF S16x16384 S16x16384 S16x16 [1] [1] [0] [0] [] []
  dot_S16x16_S16x16384_S16x16384_1_0_0_1_n_n_wf : DotDims.WF S16x16 S16x16384 S16x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x16384.size a ≤ S8x128x16384.size a
  hwx0_0 : ∀ i : grid0.Coords, EltTy.bits .f32 = 32 ∨ (Rect.block (s := S8x128x16384) S1x16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16384.size a ≤ S8x128x16384.size a
  hwx0_1 : ∀ i : grid0.Coords, EltTy.bits .f32 = 32 ∨ (Rect.block (s := S8x128x16384) S1x16x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16384.size a ≤ S8x128x16384.size a
  hwx0_2 : ∀ i : grid0.Coords, EltTy.bits .f32 = 32 ∨ (Rect.block (s := S8x128x16384) S1x16x16384.size (cc0_transform_2 i) (hinb0_2 i)).WholeWords (EltTy.packing .f32)

variable [Facts₀]

def dot_S16x16384_S16x16384_S16x16_1_1_0_0_n_n : DotDims S16x16384 S16x16384 S16x16 where
  lhsContracting := [1]
  rhsContracting := [1]
  lhsNonContracting := [0]
  rhsNonContracting := [0]
  lhsBatch := []
  rhsBatch := []
  wf := dot_S16x16384_S16x16384_S16x16_1_1_0_0_n_n_wf
def dot_S16x16_S16x16384_S16x16384_1_0_0_1_n_n : DotDims S16x16 S16x16384 S16x16384 where
  lhsContracting := [1]
  rhsContracting := [0]
  lhsNonContracting := [0]
  rhsNonContracting := [1]
  lhsBatch := []
  rhsBatch := []
  wf := dot_S16x16_S16x16384_S16x16384_1_0_0_1_n_n_wf

abbrev win0_0 : Pipeline.Window sig grid0 :=
  Pipeline.Window.ofSpec (Memref.whole main_v0) S1x16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128x128 : Shape := ⟨4, ![8, 128, 128, 128]⟩
abbrev S8x128x16384 : Shape := ⟨3, ![8, 128, 16384]⟩
abbrev S8x8x16x16384 : Shape := ⟨4, ![8, 8, 16, 16384]⟩
abbrev S_ : Shape := ⟨0, ![]⟩
abbrev S8x8x16 : Shape := ⟨3, ![8, 8, 16]⟩
abbrev S8x8x16x1 : Shape := ⟨4, ![8, 8, 16, 1]⟩
abbrev S8x8x16384 : Shape := ⟨3, ![8, 8, 16384]⟩
abbrev S8x8x1x16384 : Shape := ⟨4, ![8, 8, 1, 16384]⟩
abbrev S8x8x16x16 : Shape := ⟨4, ![8, 8, 16, 16]⟩

abbrev nBuf : Space → Nat
  | .hbm => 37
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x128x128x128, .f32⟩
  | .hbm, ⟨2, _⟩ => ⟨S8x128x16384, .f32⟩
  | .hbm, ⟨3, _⟩ => ⟨S8x128x16384, .f32⟩
  | .hbm, ⟨4, _⟩ => ⟨S8x8x16x16384, .f32⟩
  | .hbm, ⟨5, _⟩ => ⟨S8x8x16x16384, .f32⟩
  | .hbm, ⟨6, _⟩ => ⟨S_, .f32⟩
  | .hbm, ⟨7, _⟩ => ⟨S8x8x16, .f32⟩
  | .hbm, ⟨8, _⟩ => ⟨S_, .f32⟩
  | .hbm, ⟨9, _⟩ => ⟨S8x8x16, .f32⟩
  | .hbm, ⟨10, _⟩ => ⟨S8x8x16, .f32⟩
  | .hbm, ⟨11, _⟩ => ⟨S8x8x16x1, .f32⟩
  | .hbm, ⟨12, _⟩ => ⟨S8x8x16x16384, .f32⟩
  | .hbm, ⟨13, _⟩ => ⟨S8x8x16x16384, .f32⟩
  | .hbm, ⟨14, _⟩ => ⟨S8x8x16x16384, .f32⟩
  | .hbm, ⟨15, _⟩ => ⟨S_, .f32⟩
  | .hbm, ⟨16, _⟩ => ⟨S8x8x16, .f32⟩
  | .hbm, ⟨17, _⟩ => ⟨S8x8x16x1, .f32⟩
  | .hbm, ⟨18, _⟩ => ⟨S8x8x16x16384, .f32⟩
  | .hbm, ⟨19, _⟩ => ⟨S8x8x16x16384, .f32⟩
  | .hbm, ⟨20, _⟩ => ⟨S_, .f32⟩
  | .hbm, ⟨21, _⟩ => ⟨S8x8x16384, .f32⟩
  | .hbm, ⟨22, _⟩ => ⟨S_, .f32⟩
  | .hbm, ⟨23, _⟩ => ⟨S8x8x16384, .f32⟩
  | .hbm, ⟨24, _⟩ => ⟨S8x8x16384, .f32⟩
  | .hbm, ⟨25, _⟩ => ⟨S8x8x1x16384, .f32⟩
  | .hbm, ⟨26, _⟩ => ⟨S8x8x16x16384, .f32⟩
  | .hbm, ⟨27, _⟩ => ⟨S8x8x16x16384, .f32⟩
  | .hbm, ⟨28, _⟩ => ⟨S8x8x16x16384, .f32⟩
  | .hbm, ⟨29, _⟩ => ⟨S_, .f32⟩
  | .hbm, ⟨30, _⟩ => ⟨S8x8x16384, .f32⟩
  | .hbm, ⟨31, _⟩ => ⟨S8x8x1x16384, .f32⟩
  | .hbm, ⟨32, _⟩ => ⟨S8x8x16x16384, .f32⟩
  | .hbm, ⟨33, _⟩ => ⟨S8x8x16x16384, .f32⟩
  | .hbm, ⟨34, _⟩ => ⟨S8x8x16x16, .f32⟩
  | .hbm, ⟨35, _⟩ => ⟨S8x8x16x16384, .f32⟩
  | .hbm, ⟨36, _⟩ => ⟨S8x128x128x128, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  shapeCasts_S8x128x128x128_S8x128x16384 : S8x128x128x128.ShapeCasts S8x128x16384
  shapeCasts_S8x128x16384_S8x8x16x16384 : S8x128x16384.ShapeCasts S8x8x16x16384
  reducesTo_S8x8x16x16384_S8x8x16_d3 : S8x8x16x16384.ReducesTo [3] S8x8x16
  h_S_ : 0 < S_.numel
  bcast_S_S8x8x16 : S_.BroadcastsInDim S8x8x16 (![] : Fin 0 → Fin S8x8x16.rank)
  bcast_S8x8x16_S8x8x16x1_0_1_2 : S8x8x16.BroadcastsInDim S8x8x16x1 (![0, 1, 2] : Fin 3 → Fin S8x8x16x1.rank)
  bcast_S8x8x16x1_S8x8x16x16384_0_1_2_3 : S8x8x16x1.BroadcastsInDim S8x8x16x16384 (![0, 1, 2, 3] : Fin 4 → Fin S8x8x16x16384.rank)
  reducesTo_S8x8x16x16384_S8x8x16384_d2 : S8x8x16x16384.ReducesTo [2] S8x8x16384
  bcast_S_S8x8x16384 : S_.BroadcastsInDim S8x8x16384 (![] : Fin 0 → Fin S8x8x16384.rank)
  bcast_S8x8x16384_S8x8x1x16384_0_1_3 : S8x8x16384.BroadcastsInDim S8x8x1x16384 (![0, 1, 3] : Fin 3 → Fin S8x8x1x16384.rank)
  bcast_S8x8x1x16384_S8x8x16x16384_0_1_2_3 : S8x8x1x16384.BroadcastsInDim S8x8x16x16384 (![0, 1, 2, 3] : Fin 4 → Fin S8x8x16x16384.rank)
  shapeCasts_S8x8x16x16384_S8x128x128x128 : S8x8x16x16384.ShapeCasts S8x128x128x128
  dot_S8x8x16x16384_S8x8x16x16384_S8x8x16x16_3_3_2_2_01_01_wf : DotDims.WF S8x8x16x16384 S8x8x16x16384 S8x8x16x16 [3] [3] [2] [2] [0, 1] [0, 1]
  dot_S8x8x16x16_S8x8x16x16384_S8x8x16x16384_2_2_3_3_01_01_wf : DotDims.WF S8x8x16x16 S8x8x16x16384 S8x8x16x16384 [2] [2] [3] [3] [0, 1] [0, 1]

variable [Facts₀]

def dot_S8x8x16x16384_S8x8x16x16384_S8x8x16x16_3_3_2_2_01_01 : DotDims S8x8x16x16384 S8x8x16x16384 S8x8x16x16 where
  lhsContracting := [3]
  rhsContracting := [3]
  lhsNonContracting := [2]
  rhsNonContracting := [2]
  lhsBatch := [0, 1]
  rhsBatch := [0, 1]
  wf := dot_S8x8x16x16384_S8x8x16x16384_S8x8x16x16_3_3_2_2_01_01_wf
def dot_S8x8x16x16_S8x8x16x16384_S8x8x16x16384_2_2_3_3_01_01 : DotDims S8x8x16x16 S8x8x16x16384 S8x8x16x16384 where
  lhsContracting := [2]
  rhsContracting := [2]
  lhsNonContracting := [3]
  rhsNonContracting := [3]
  lhsBatch := [0, 1]
  rhsBatch := [0, 1]
  wf := dot_S8x8x16x16_S8x8x16x16384_S8x8x16x16384_2_2_3_3_01_01_wf

class Facts : Prop extends Facts₀ where

variable [Facts]
-- ==== Proof.LibKeepdims.lean ====
/-
  General lemmas, over the library only: a rank-2 float array reduced along one axis with the reduced axis kept
  (`jnp.max(x, axis, keepdims=True)`, `jnp.sum(x, axis, keepdims=True)`) and broadcast back over the array, read at an
  index given by coordinates.

  * the keepdims casts and broadcasts the library's ValueLayout does not have: a vector `[a]` cast to a column `[a, 1]`
    (`shapeCast_a_a1_apply`) and a column `[a, 1]` broadcast over `[a, b]` (`broadcastTo_a1_ab_apply`);
  * the index a one-axis reduction of a matrix inserts (`lift_row`, `lift_col`);
  * at the ideal float values, a `vector.multi_reduction` of a matrix along its rows or columns read at a coordinate:
    a maximum as the fold of `max` from the accumulator's value (`maxRow_apply`, `maxCol_apply`), a sum as the
    `Fin`-indexed sum (`sumRow_apply`, `sumCol_apply`); the accumulator's two proof arguments are hypotheses, so
    the lemmas apply to a printed reduction whatever proof terms it carries;
  * the four composites a softmax over either axis meets: reduce, keep the axis, broadcast back — read at `(i, j)`
    (`maxRow_keep_apply`, `sumRow_keep_apply`, `maxCol_keep_apply`, `sumCol_keep_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.Keepdims

open Idealize.ShloMosaic Idealize.ShloMosaic.ValueIdx

variable {α : Type}

/-! ## The keepdims column forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[b]` cast to a row `[1, b]` and broadcast over `[a, b]` is in the library
    (`shapeCast_a_1a_apply`, `broadcastTo_1b_ab_apply`); a column `[a, 1]` broadcast over `[a, b]` reads, at `(i, j)`,
    the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The index a one-axis reduction of a matrix inserts -/

/-- Reducing a matrix along its rows (axis 1): the reduced index `i` with column `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Reducing a matrix along its columns (axis 0): the reduced index `j` with row `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-! ## A matrix reduced along one axis, at the ideal values, read at a coordinate -/

section AtIdeal
variable {φ : FTy} {a b : ℕ}

/-- The maximum of each row: the fold of `max` from the accumulator's value over the row's entries. -/
theorem maxRow_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ x acc h hφ hacc (ix1 i)
      = (Finset.univ : Finset (Fin b)).fold max (Ideal.ofBits φ acc) (fun j => x (ix2 i j)) := by
  refine (Ideal.multiReduction_maximumf_single x acc h hφ hacc (ix1 i)).trans ?_
  show (Finset.univ : Finset (Fin b)).fold max (Ideal.ofBits φ acc) (x ∘ h.lift (ix1 i)) = _
  exact congrArg (fun f => Finset.fold max (Ideal.ofBits φ acc) f (Finset.univ : Finset (Fin b)))
    (funext fun k => congrArg x (lift_row h i k))

/-- The sum of each row. -/
theorem sumRow_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ x acc h hφ hacc (ix1 i) = ∑ j : Fin b, x (ix2 i j) := by
  refine (Ideal.multiReduction_add_single x acc h hφ hacc (ix1 i)).trans ?_
  show ∑ k : Fin b, x (h.lift (ix1 i) k) = _
  exact Finset.sum_congr rfl fun k _ => congrArg x (lift_row h i k)

/-- The maximum of each column. -/
theorem maxCol_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ x acc h hφ hacc (ix1 j)
      = (Finset.univ : Finset (Fin a)).fold max (Ideal.ofBits φ acc) (fun i => x (ix2 i j)) := by
  refine (Ideal.multiReduction_maximumf_single x acc h hφ hacc (ix1 j)).trans ?_
  show (Finset.univ : Finset (Fin a)).fold max (Ideal.ofBits φ acc) (x ∘ h.lift (ix1 j)) = _
  exact congrArg (fun f => Finset.fold max (Ideal.ofBits φ acc) f (Finset.univ : Finset (Fin a)))
    (funext fun k => congrArg x (lift_col h j k))

/-- The sum of each column. -/
theorem sumCol_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ x acc h hφ hacc (ix1 j) = ∑ i : Fin a, x (ix2 i j) := by
  refine (Ideal.multiReduction_add_single x acc h hφ hacc (ix1 j)).trans ?_
  show ∑ k : Fin a, x (h.lift (ix1 j) k) = _
  exact Finset.sum_congr rfl fun k _ => congrArg x (lift_col h j k)

/-! ## Reduce, keep the axis, broadcast back -/

/-- Each row's maximum, kept as a column and broadcast back over the matrix, at `(i, j)`. -/
theorem maxRow_keep_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ (multiReduction .maximumf [1] ⟨1, ![a]⟩ x acc h hφ hacc) hc) hb (ix2 i j)
      = (Finset.univ : Finset (Fin b)).fold max (Ideal.ofBits φ acc) (fun j' => x (ix2 i j')) :=
  (broadcastTo_a1_ab_apply _ hb i j).trans ((shapeCast_a_a1_apply _ hc i 0).trans (maxRow_apply x acc h hφ hacc i))

/-- Each row's sum, kept as a column and broadcast back, at `(i, j)`. -/
theorem sumRow_keep_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ (multiReduction .add [1] ⟨1, ![a]⟩ x acc h hφ hacc) hc) hb (ix2 i j)
      = ∑ j' : Fin b, x (ix2 i j') :=
  (broadcastTo_a1_ab_apply _ hb i j).trans ((shapeCast_a_a1_apply _ hc i 0).trans (sumRow_apply x acc h hφ hacc i))

/-- Each column's maximum, kept as a row and broadcast back, at `(i, j)`. -/
theorem maxCol_keep_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (hc : (⟨1, ![b]⟩ : Shape).ShapeCasts ⟨2, ![1, b]⟩)
    (hb : (⟨2, ![1, b]⟩ : Shape).Broadcasts ⟨2, ![a, b]⟩) (i : Fin a) (j : Fin b) :
    broadcastTo ⟨2, ![a, b]⟩ (shapeCast ⟨2, ![1, b]⟩ (multiReduction .maximumf [0] ⟨1, ![b]⟩ x acc h hφ hacc) hc) hb (ix2 i j)
      = (Finset.univ : Finset (Fin a)).fold max (Ideal.ofBits φ acc) (fun i' => x (ix2 i' j)) :=
  (broadcastTo_1b_ab_apply _ hb i j).trans ((shapeCast_a_1a_apply _ hc 0 j).trans (maxCol_apply x acc h hφ hacc j))

/-- Each column's sum, kept as a row and broadcast back, at `(i, j)`. -/
theorem sumCol_keep_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (hc : (⟨1, ![b]⟩ : Shape).ShapeCasts ⟨2, ![1, b]⟩)
    (hb : (⟨2, ![1, b]⟩ : Shape).Broadcasts ⟨2, ![a, b]⟩) (i : Fin a) (j : Fin b) :
    broadcastTo ⟨2, ![a, b]⟩ (shapeCast ⟨2, ![1, b]⟩ (multiReduction .add [0] ⟨1, ![b]⟩ x acc h hφ hacc) hc) hb (ix2 i j)
      = ∑ i' : Fin a, x (ix2 i' j) :=
  (broadcastTo_1b_ab_apply _ hb i j).trans ((shapeCast_a_1a_apply _ hc 0 j).trans (sumCol_apply x acc h hφ hacc j))

end AtIdeal

end Idealize.ShloMosaic.Keepdims

end
-- ==== Proof.Attn.lean ====
/-
  The mathematics both programs compute, stated once over the extended reals.

  One head works on a key block `kk : Fin 16 → Fin 16384 → EReal` (16 head channels, 16384 positions) and a value
  block `vv` of the same extents:
    keySm k n = exp (kk k n − max_n' kk k n') / Σ_n' exp (kk k n' − max_n'' kk k n'')     (softmax along the positions)
    qrySm k n = exp (kk k n − max_k' kk k' n) / Σ_k' exp (kk k' n − max_k'' kk k'' n)     (softmax along the channels)
    ctx k v   = Σ_n keySm k n · vv v n
    att v n   = Σ_k ctx k v · qrySm k n
  The maxima are folds of `max` from −∞ (the word both programs write), the quotient is the extended reals' division
  as the float instance defines it, and every sum is a `Fin`-indexed sum: no law of arithmetic is needed to join the
  two programs, only that each spells this same expression.

  The whole result: the [8, 128, 16384] array whose entry (b, c, n) is `att` of head (b, c / 16) at (c % 16, n), the head's
  blocks being channels 16·(c / 16) … 16·(c / 16) + 15 of the two argument arrays viewed [8, 128, 16384]; and that array
  viewed [8, 128, 128, 128] (`result`).
-/
import Idealize.ShloMosaic.PureOps.Ideal.Laws
import Idealize.ShloMosaic.Lib.ValueIdx
import Idealize.ShloMosaic.Lib.Pipeline.Value

noncomputable section

namespace Cert.Attn

open Idealize.ShloMosaic Idealize.ShloMosaic.ValueIdx

/-- −∞, as the word `0xFF800000` denotes it. -/
abbrev negInf : EReal := Ideal.ofBits .f32 0xFF800000#32

/-- The maximum with −∞ is the other operand. -/
theorem max_negInf (y : EReal) : max negInf y = y := by
  simp [negInf, Ideal.ofBits, Ideal.ieee]

/-- The word `0` denotes zero, so a sum started from it is the sum. -/
theorem zero_word_add (y : EReal) : Ideal.ofBits .f32 0x00000000#32 + y = y := by
  rw [Ideal.ofBits_zero_f32, zero_add]

/-! ## One head -/

/-- The largest key of channel `k` over the positions. -/
def rowMax (kk : Fin 16 → Fin 16384 → EReal) (k : Fin 16) : EReal :=
  (Finset.univ : Finset (Fin 16384)).fold max negInf (fun n => kk k n)

/-- The largest key at position `n` over the channels. -/
def colMax (kk : Fin 16 → Fin 16384 → EReal) (n : Fin 16384) : EReal :=
  (Finset.univ : Finset (Fin 16)).fold max negInf (fun k => kk k n)

/-- The softmax numerators along the positions and along the channels. -/
def rowE (kk : Fin 16 → Fin 16384 → EReal) (k : Fin 16) (n : Fin 16384) : EReal := Ideal.exp (kk k n - rowMax kk k)
def colE (kk : Fin 16 → Fin 16384 → EReal) (k : Fin 16) (n : Fin 16384) : EReal := Ideal.exp (kk k n - colMax kk n)

/-- The keys' softmax along the positions. -/
def keySm (kk : Fin 16 → Fin 16384 → EReal) (k : Fin 16) (n : Fin 16384) : EReal :=
  Ideal.div (rowE kk k n) (∑ n' : Fin 16384, rowE kk k n')

/-- The keys' softmax along the channels (the queries). -/
def qrySm (kk : Fin 16 → Fin 16384 → EReal) (k : Fin 16) (n : Fin 16384) : EReal :=
  Ideal.div (colE kk k n) (∑ k' : Fin 16, colE kk k' n)

/-- The context matrix: key channel `k` against value channel `v`, summed over the positions. -/
def ctx (kk vv : Fin 16 → Fin 16384 → EReal) (k v : Fin 16) : EReal := ∑ n : Fin 16384, keySm kk k n * vv v n

/-- The attended value: channel `v` at position `n`. -/
def att (kk vv : Fin 16 → Fin 16384 → EReal) (v : Fin 16) (n : Fin 16384) : EReal :=
  ∑ k : Fin 16, ctx kk vv k v * qrySm kk k n

/-! ## The whole array -/

/-- Channel `k` of the head that channel `c` belongs to. -/
def chan (c : Fin 128) (k : Fin 16) : Fin 128 := ⟨c.val / 16 * 16 + k.val, by have := c.isLt; have := k.isLt; omega⟩

/-- A channel's place inside its head. -/
def sub (c : Fin 128) : Fin 16 := ⟨c.val % 16, Nat.mod_lt _ (by decide)⟩

/-- The head's key block, and its value block, cut from an array [8, 128, 16384]. -/
def headOf (a : (⟨3, ![8, 128, 16384]⟩ : Shape).Idx → EReal) (b : Fin 8) (c : Fin 128) : Fin 16 → Fin 16384 → EReal :=
  fun k n => a (ix3 b (chan c k) n)

/-- Entry (b, c, n) of the result, from the values `a0` and the keys `a1`, both viewed [8, 128, 16384]. -/
def at3 (a0 a1 : (⟨3, ![8, 128, 16384]⟩ : Shape).Idx → EReal) (b : Fin 8) (c : Fin 128) (n : Fin 16384) : EReal :=
  att (headOf a1 b c) (headOf a0 b c) (sub c) n

/-- The result viewed [8, 128, 16384]. -/
def result3 (a0 a1 : (⟨3, ![8, 128, 16384]⟩ : Shape).Idx → EReal) : (⟨3, ![8, 128, 16384]⟩ : Shape).Idx → EReal :=
  fun i => at3 a0 a1 (i 0) (i 1) (i 2)

theorem result3_ix3 (a0 a1 : (⟨3, ![8, 128, 16384]⟩ : Shape).Idx → EReal) (b : Fin 8) (c : Fin 128) (n : Fin 16384) :
    result3 a0 a1 (ix3 b c n) = at3 a0 a1 b c n := rfl

theorem casts43 : (⟨4, ![8, 128, 128, 128]⟩ : Shape).ShapeCasts ⟨3, ![8, 128, 16384]⟩ := by decide
theorem casts34 : (⟨3, ![8, 128, 16384]⟩ : Shape).ShapeCasts ⟨4, ![8, 128, 128, 128]⟩ := by decide

/-- The result: the two arguments [8, 128, 128, 128] viewed [8, 128, 16384], `result3` of them, viewed [8, 128, 128, 128]. -/
def result (x0 x1 : (⟨4, ![8, 128, 128, 128]⟩ : Shape).Idx → EReal) : (⟨4, ![8, 128, 128, 128]⟩ : Shape).Idx → EReal :=
  shapeCast ⟨4, ![8, 128, 128, 128]⟩
    (result3 (shapeCast ⟨3, ![8, 128, 16384]⟩ x0 casts43) (shapeCast ⟨3, ![8, 128, 16384]⟩ x1 casts43)) casts34

end Cert.Attn

end
-- ==== Proof.Body.lean ====
/-
  What the kernel body stores, read at one element: with `kk` the key block and `vv` the value block the body
  loads (each [1, 16, 16384], its leading unit axis dropped), the stored block's entry (0, v, n) is `Cert.Attn.att kk vv v n`.

  The body's arithmetic is one term over the two loaded blocks: two row-wise reductions of the keys (maximum, then
  the sum of the exponentials) with the reduced axis kept and broadcast back, the same two along the channels,
  two quotients, and two matrix products, the first contracting the positions of the row softmax against the values
  (`ctx`), the second contracting the key channels of its transpose against the channel softmax. Each piece is read
  at an index by a lemma over ARBITRARY operand vectors — the keepdims composites of LibKeepdims, the two products
  below as `Fin`-indexed sums over their one contraction coordinate — and the payload lemma chains them, outermost
  operation first.
-/
import proofs.«175915_j32469952757796_1_alg».proof.Proof.Gen.KernelIdeal.Skeleton
import proofs.«175915_j32469952757796_1_alg».proof.Proof.LibKeepdims
import proofs.«175915_j32469952757796_1_alg».proof.Proof.Attn
import Idealize.ShloMosaic.Lib.ValueLayout

noncomputable section

namespace Cert.KernelIdeal.Body

open Cert.KernelIdeal Cert.KernelIdeal.Gen Idealize.ShloMosaic Idealize.ShloMosaic.ValueIdx
open Idealize.ShloMosaic.Keepdims Cert.Attn

/-! ## The two matrix products, as sums over the contraction coordinate -/

abbrev D1 := dot_S16x16384_S16x16384_S16x16_1_1_0_0_n_n
abbrev D2 := dot_S16x16_S16x16384_S16x16384_1_0_0_1_n_n

theorem lhs1_0 (i : S16x16.Idx) (q : D1.contr.Idx) : (D1.lhsIdx i q 0).val = (i 0).val := by
  unfold DotDims.lhsIdx
  rw [dif_neg (show ¬(0 : Fin S16x16384.rank) ∈ D1.lhsBatch by decide), dif_pos (show (0 : Fin S16x16384.rank) ∈ D1.lhsNonContracting by decide)]
  rfl
theorem lhs1_1 (i : S16x16.Idx) (q : D1.contr.Idx) : (D1.lhsIdx i q 1).val = (q ⟨0, by decide⟩).val :=
  D1.lhsIdx_val_of_single rfl i q
theorem rhs1_0 (i : S16x16.Idx) (q : D1.contr.Idx) : (D1.rhsIdx i q 0).val = (i 1).val := by
  unfold DotDims.rhsIdx
  rw [dif_neg (show ¬(0 : Fin S16x16384.rank) ∈ D1.rhsBatch by decide), dif_pos (show (0 : Fin S16x16384.rank) ∈ D1.rhsNonContracting by decide)]
  rfl
theorem rhs1_1 (i : S16x16.Idx) (q : D1.contr.Idx) : (D1.rhsIdx i q 1).val = (q ⟨0, by decide⟩).val :=
  D1.rhsIdx_val_of_single rfl i q

/-- The first product, positions contracted: entry (k, v) is the sum over the positions of row `k` of the left operand
    times row `v` of the right. -/
theorem prod1_apply (A B : FVec Ideal S16x16384 .f32) (k v : Fin 16) :
    matmul D1 none A B (constant S16x16 .f32 0x00000000#32) (ix2 k v) = ∑ n : Fin 16384, A (ix2 k n) * B (ix2 v n) := by
  simp only [matmul]
  rw [Ideal.matmul_constant_zero_apply, ← Equiv.sum_comp (ValueIdx.contrEquiv1 D1 16384 rfl rfl).symm]
  refine Finset.sum_congr rfl fun q _ => ?_
  have hq := ValueIdx.contrEquiv1_symm_val D1 16384 rfl rfl q
  have el : D1.lhsIdx (ix2 k v) ((ValueIdx.contrEquiv1 D1 16384 rfl rfl).symm q) = ix2 k q := funext fun a => Fin.ext (by
    match a with
    | ⟨0, _⟩ => exact lhs1_0 _ _
    | ⟨1, _⟩ => exact (lhs1_1 _ _).trans hq)
  have er : D1.rhsIdx (ix2 k v) ((ValueIdx.contrEquiv1 D1 16384 rfl rfl).symm q) = ix2 v q := funext fun a => Fin.ext (by
    match a with
    | ⟨0, _⟩ => exact rhs1_0 _ _
    | ⟨1, _⟩ => exact (rhs1_1 _ _).trans hq)
  rw [el, er]

theorem lhs2_0 (i : S16x16384.Idx) (q : D2.contr.Idx) : (D2.lhsIdx i q 0).val = (i 0).val := by
  unfold DotDims.lhsIdx
  rw [dif_neg (show ¬(0 : Fin S16x16.rank) ∈ D2.lhsBatch by decide), dif_pos (show (0 : Fin S16x16.rank) ∈ D2.lhsNonContracting by decide)]
  rfl
theorem lhs2_1 (i : S16x16384.Idx) (q : D2.contr.Idx) : (D2.lhsIdx i q 1).val = (q ⟨0, by decide⟩).val :=
  D2.lhsIdx_val_of_single rfl i q
theorem rhs2_0 (i : S16x16384.Idx) (q : D2.contr.Idx) : (D2.rhsIdx i q 0).val = (q ⟨0, by decide⟩).val :=
  D2.rhsIdx_val_of_single rfl i q
theorem rhs2_1 (i : S16x16384.Idx) (q : D2.contr.Idx) : (D2.rhsIdx i q 1).val = (i 1).val := by
  unfold DotDims.rhsIdx
  rw [dif_neg (show ¬(1 : Fin S16x16384.rank) ∈ D2.rhsBatch by decide), dif_pos (show (1 : Fin S16x16384.rank) ∈ D2.rhsNonContracting by decide)]
  rfl

/-- The second product, the left operand's columns against the right operand's rows: entry (v, n) is the sum over
    `k` of the left at (v, k) times the right at (k, n). -/
theorem prod2_apply (A : FVec Ideal S16x16 .f32) (B : FVec Ideal S16x16384 .f32) (v : Fin 16) (n : Fin 16384) :
    matmul D2 none A B (constant S16x16384 .f32 0x00000000#32) (ix2 v n) = ∑ k : Fin 16, A (ix2 v k) * B (ix2 k n) := by
  simp only [matmul]
  rw [Ideal.matmul_constant_zero_apply, ← Equiv.sum_comp (ValueIdx.contrEquiv1 D2 16 rfl rfl).symm]
  refine Finset.sum_congr rfl fun q _ => ?_
  have hq := ValueIdx.contrEquiv1_symm_val D2 16 rfl rfl q
  have el : D2.lhsIdx (ix2 v n) ((ValueIdx.contrEquiv1 D2 16 rfl rfl).symm q) = ix2 v q := funext fun a => Fin.ext (by
    match a with
    | ⟨0, _⟩ => exact lhs2_0 _ _
    | ⟨1, _⟩ => exact (lhs2_1 _ _).trans hq)
  have er : D2.rhsIdx (ix2 v n) ((ValueIdx.contrEquiv1 D2 16 rfl rfl).symm q) = ix2 q n := funext fun a => Fin.ext (by
    match a with
    | ⟨0, _⟩ => exact (rhs2_0 _ _).trans hq
    | ⟨1, _⟩ => exact rhs2_1 _ _)
  rw [el, er]

/-! ## The two softmaxes, as the body spells them, at an element -/

/-- Along the positions: subtract each row's maximum, exponentiate, divide by each row's sum. -/
theorem keySm_apply (X : FVec Ideal S16x16384 .f32) (kk : Fin 16 → Fin 16384 → EReal)
    (hX : ∀ k n, X (ix2 k n) = kk k n)
    (h1 : S16x16384.Reduces [1] S16) (hφ : FKind.Formats .f32) (hm : (0xFF800000#32 : BitVec 32) = FKind.maximumf.neutral .f32 hφ)
    (hφ' : FKind.Formats .f32) (ha : (0x00000000#32 : BitVec 32) = FKind.add.neutral .f32 hφ')
    (hc : S16.ShapeCasts S16x1) (hb : S16x1.Broadcasts S16x16384) (k : Fin 16) (n : Fin 16384) :
    divf (exp (subf X (broadcastTo S16x16384 (shapeCast S16x1 (multiReduction .maximumf [1] S16 X 0xFF800000#32 h1 hφ hm) hc) hb)))
      (broadcastTo S16x16384 (shapeCast S16x1 (multiReduction .add [1] S16
        (exp (subf X (broadcastTo S16x16384 (shapeCast S16x1 (multiReduction .maximumf [1] S16 X 0xFF800000#32 h1 hφ hm) hc) hb)))
        0x00000000#32 h1 hφ' ha) hc) hb) (ix2 k n) = keySm kk k n := by
  have hM : ∀ k n, broadcastTo S16x16384 (shapeCast S16x1 (multiReduction .maximumf [1] S16 X 0xFF800000#32 h1 hφ hm) hc) hb (ix2 k n)
      = rowMax kk k :=
    fun k n => (maxRow_keep_apply X _ h1 hφ hm hc hb k n).trans
      (congrArg (fun f => Finset.fold max negInf f (Finset.univ : Finset (Fin 16384))) (funext fun n' => hX k n'))
  generalize broadcastTo S16x16384 (shapeCast S16x1 (multiReduction .maximumf [1] S16 X 0xFF800000#32 h1 hφ hm) hc) hb = M at hM ⊢
  have hE : ∀ k n, exp (subf X M) (ix2 k n) = rowE kk k n := fun k n => by
    show Ideal.exp (X (ix2 k n) - M (ix2 k n)) = _
    rw [hX, hM]; rfl
  generalize exp (subf X M) = E at hE ⊢
  have hS : ∀ k n, broadcastTo S16x16384 (shapeCast S16x1 (multiReduction .add [1] S16 E 0x00000000#32 h1 hφ' ha) hc) hb (ix2 k n)
      = ∑ n' : Fin 16384, rowE kk k n' :=
    fun k n => (sumRow_keep_apply E _ h1 hφ' ha hc hb k n).trans (Finset.sum_congr rfl fun n' _ => hE k n')
  generalize broadcastTo S16x16384 (shapeCast S16x1 (multiReduction .add [1] S16 E 0x00000000#32 h1 hφ' ha) hc) hb = S at hS ⊢
  show Ideal.div (E (ix2 k n)) (S (ix2 k n)) = _
  rw [hE, hS]; rfl

/-- Along the channels: subtract each position's maximum, exponentiate, divide by each position's sum. -/
theorem qrySm_apply (X : FVec Ideal S16x16384 .f32) (kk : Fin 16 → Fin 16384 → EReal)
    (hX : ∀ k n, X (ix2 k n) = kk k n)
    (h0 : S16x16384.Reduces [0] S16384) (hφ : FKind.Formats .f32) (hm : (0xFF800000#32 : BitVec 32) = FKind.maximumf.neutral .f32 hφ)
    (hφ' : FKind.Formats .f32) (ha : (0x00000000#32 : BitVec 32) = FKind.add.neutral .f32 hφ')
    (hc : S16384.ShapeCasts S1x16384) (hb : S1x16384.Broadcasts S16x16384) (k : Fin 16) (n : Fin 16384) :
    divf (exp (subf X (broadcastTo S16x16384 (shapeCast S1x16384 (multiReduction .maximumf [0] S16384 X 0xFF800000#32 h0 hφ hm) hc) hb)))
      (broadcastTo S16x16384 (shapeCast S1x16384 (multiReduction .add [0] S16384
        (exp (subf X (broadcastTo S16x16384 (shapeCast S1x16384 (multiReduction .maximumf [0] S16384 X 0xFF800000#32 h0 hφ hm) hc) hb)))
        0x00000000#32 h0 hφ' ha) hc) hb) (ix2 k n) = qrySm kk k n := by
  have hM : ∀ k n, broadcastTo S16x16384 (shapeCast S1x16384 (multiReduction .maximumf [0] S16384 X 0xFF800000#32 h0 hφ hm) hc) hb (ix2 k n)
      = colMax kk n :=
    fun k n => (maxCol_keep_apply X _ h0 hφ hm hc hb k n).trans
      (congrArg (fun f => Finset.fold max negInf f (Finset.univ : Finset (Fin 16))) (funext fun k' => hX k' n))
  generalize broadcastTo S16x16384 (shapeCast S1x16384 (multiReduction .maximumf [0] S16384 X 0xFF800000#32 h0 hφ hm) hc) hb = M at hM ⊢
  have hE : ∀ k n, exp (subf X M) (ix2 k n) = colE kk k n := fun k n => by
    show Ideal.exp (X (ix2 k n) - M (ix2 k n)) = _
    rw [hX, hM]; rfl
  generalize exp (subf X M) = E at hE ⊢
  have hS : ∀ k n, broadcastTo S16x16384 (shapeCast S1x16384 (multiReduction .add [0] S16384 E 0x00000000#32 h0 hφ' ha) hc) hb (ix2 k n)
      = ∑ k' : Fin 16, colE kk k' n :=
    fun k n => (sumCol_keep_apply E _ h0 hφ' ha hc hb k n).trans (Finset.sum_congr rfl fun k' _ => hE k' n)
  generalize broadcastTo S16x16384 (shapeCast S1x16384 (multiReduction .add [0] S16384 E 0x00000000#32 h0 hφ' ha) hc) hb = S at hS ⊢
  show Ideal.div (E (ix2 k n)) (S (ix2 k n)) = _
  rw [hE, hS]; rfl

/-! ## The payload at an element -/

/-- Entry (0, v, n) of what the body stores is the attended value of the loaded key block `v0` and value block `v2`. -/
theorem pay_apply (v0 v2 : Vec Ideal S1x16x16384 .f32) (u : Fin 1) (v : Fin 16) (n : Fin 16384) :
    k0_pay1 v0 v2 (ix3 u v n) = att (fun k n => v0 (ix3 (0 : Fin 1) k n)) (fun v n => v2 (ix3 (0 : Fin 1) v n)) v n := by
  have hkk : ∀ k n, shapeCast S16x16384 v0 shapeCasts_S1x16x16384_S16x16384 (ix2 k n) = v0 (ix3 (0 : Fin 1) k n) :=
    fun k n => shapeCast_1ab_ab_apply v0 _ k n
  unfold k0_pay1
  refine (shapeCast_ab_1ab_apply _ _ u v n).trans ?_
  refine (prod2_apply _ _ v n).trans ?_
  unfold att
  refine Finset.sum_congr rfl fun k _ => ?_
  refine congrArg₂ (· * ·) ?_ (qrySm_apply _ _ hkk _ _ _ _ _ _ _ k n)
  refine (transpose_ix2_apply _ _ v k).trans ?_
  refine (prod1_apply _ _ k v).trans ?_
  unfold ctx
  refine Finset.sum_congr rfl fun n' _ => ?_
  exact congrArg₂ (· * ·) (keySm_apply _ _ hkk _ _ _ _ _ _ _ k n') (shapeCast_1ab_ab_apply v2 _ v n')

end Cert.KernelIdeal.Body

end
-- ==== Proof.KernelValue.lean ====
/-
  The idealized kernel's run, read: its result array ends at `Cert.Attn.result` of its two arguments.

  Grid point t = (b, h) works on head (b, h): its two input blocks are channels 16 h … 16 h + 15 of batch `b` of the values
  and of the keys (the arguments viewed [8, 128, 16384] by the host before the launch), and the block it writes back is
  the same channels of the output array. By the body's payload lemma the written block is, entry by entry, the attended
  value of the head — which is what `Cert.Attn.result3` of the two viewed arrays holds under that block (`written_block`).
  The 64 blocks tile the output array (`every_entry_written`), so the array ends at `result3` (`out_array`); the
  host then views it [8, 128, 128, 128] (`tail_eq`), and the two views before the launch are read off the host prefix
  (`V_main_v0`, `V_main_v1`).
-/
import proofs.«175915_j32469952757796_1_alg».proof.Proof.Gen.KernelIdeal.Frame
import proofs.«175915_j32469952757796_1_alg».proof.Proof.Body
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Attn Cert.KernelIdeal.Body

variable (m : (ℓ : Loc nD τ sig) → Buf (Elt Ideal) ℓ) (ρ : Dev nD → PrngReg)

theorem hz : (![0, 0, 0] : Fin 3 → Nat) = fun _ => 0 := funext fun a => by fin_cases a <;> rfl

/-- The three windows move together: at every grid point the two inputs' block indices are the output's, the
    position axis is not cut, and the batch and head indices stay in range. -/
theorem idx_facts : ∀ t : Fin cfg0.N, win0_0.index t (0 : Fin 3) = win0_2.index t (0 : Fin 3)
    ∧ win0_0.index t (1 : Fin 3) = win0_2.index t (1 : Fin 3) ∧ win0_0.index t (2 : Fin 3) = 0
    ∧ win0_1.index t (0 : Fin 3) = win0_2.index t (0 : Fin 3)
    ∧ win0_1.index t (1 : Fin 3) = win0_2.index t (1 : Fin 3) ∧ win0_1.index t (2 : Fin 3) = 0
    ∧ win0_2.index t (2 : Fin 3) = 0 ∧ win0_2.index t (0 : Fin 3) < 8 ∧ win0_2.index t (1 : Fin 3) < 8 :=
  (by decide +kernel : ∀ t : Fin grid0.N, _)

/-- Every (batch, head) pair is some grid point's. -/
theorem idx_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- An entry of the values' block at point `t` is the entry of the viewed values array under it. -/
theorem iblk0_apply (c : Dev nD) (t : Fin cfg0.N) (x : S1x16x16384.Idx) (k : S8x128x16384.Idx)
    (h0 : (k 0).val = win0_0.index t (0 : Fin 3) * 1 + 1 * (x 0).val)
    (h1 : (k 1).val = win0_0.index t (1 : Fin 3) * 16 + 1 * (x 1).val)
    (h2 : (k 2).val = win0_0.index t (2 : Fin 3) * 16384 + 1 * (x 2).val) :
    (iblk m c 0 t : Vec Ideal S1x16x16384 .f32) x = (V m c main_v0 : S8x128x16384.Idx → Elt Ideal .f32) k := by
  unfold iblk
  rw [View.read_apply]
  show V m c main_v0 _ = V m c main_v0 k
  refine congrArg (V m c main_v0) (funext fun a => Fin.ext ?_)
  match a with
  | ⟨0, _⟩ => exact h0.symm
  | ⟨1, _⟩ => exact h1.symm
  | ⟨2, _⟩ => exact h2.symm

/-- An entry of the keys' block at point `t` is the entry of the viewed keys array under it. -/
theorem iblk1_apply (c : Dev nD) (t : Fin cfg0.N) (x : S1x16x16384.Idx) (k : S8x128x16384.Idx)
    (h0 : (k 0).val = win0_1.index t (0 : Fin 3) * 1 + 1 * (x 0).val)
    (h1 : (k 1).val = win0_1.index t (1 : Fin 3) * 16 + 1 * (x 1).val)
    (h2 : (k 2).val = win0_1.index t (2 : Fin 3) * 16384 + 1 * (x 2).val) :
    (iblk m c 1 t : Vec Ideal S1x16x16384 .f32) x = (V m c main_v1 : S8x128x16384.Idx → Elt Ideal .f32) k := by
  unfold iblk
  rw [View.read_apply]
  show V m c main_v1 _ = V m c main_v1 k
  refine congrArg (V m c main_v1) (funext fun a => Fin.ext ?_)
  match a with
  | ⟨0, _⟩ => exact h0.symm
  | ⟨1, _⟩ => exact h1.symm
  | ⟨2, _⟩ => exact h2.symm

/-- WHAT POINT `t` WRITES BACK is block `t` of `result3` of the two viewed arrays. -/
theorem written_block (c : Dev nD) (t : Fin cfg0.N) :
    (dats m 0 c).flushed 2 t = ((cfg0.win 2).blk t).view.read (Elt Ideal) (result3 (V m c main_v0) (V m c main_v1)) := by
  show (cfg0.win 2).cut (grid0.coords t) ((dats m 0 c).after 2 t) = _
  rw [after0_2]
  unfold out0_2
  rw [View.canon_unit_zero hz]
  simp only [View.ld_unit_zero (S := S1x16x16384) hz]
  obtain ⟨e00, e01, e02, e10, e11, e12, e22, l0, l1⟩ := idx_facts t
  refine funext fun (j : S1x16x16384.Idx) => ?_
  obtain ⟨u, r, n, rfl⟩ : ∃ (u : Fin 1) (r : Fin 16) (n : Fin 16384), j = ix3 u r n := ⟨j 0, j 1, j 2, eq_ix3 j⟩
  have hu : u.val = 0 := by omega
  have hr := r.isLt
  have hn := n.isLt
  show k0_pay1 (iblk m c 1 t) (iblk m c 0 t) (ix3 u r n)
    = result3 (V m c main_v0) (V m c main_v1) (((cfg0.win 2).blk t).view.emb (ix3 u r n))
  have hemb : ((cfg0.win 2).blk t).view.emb (ix3 u r n)
      = ix3 (⟨win0_2.index t (0 : Fin 3), l0⟩ : Fin 8) (⟨win0_2.index t (1 : Fin 3) * 16 + r.val, by omega⟩ : Fin 128) n :=
    funext fun a => Fin.ext (by
      match a with
      | ⟨0, _⟩ => show win0_2.index t (0 : Fin 3) * 1 + 1 * u.val = win0_2.index t (0 : Fin 3); omega
      | ⟨1, _⟩ => show win0_2.index t (1 : Fin 3) * 16 + 1 * r.val = win0_2.index t (1 : Fin 3) * 16 + r.val; omega
      | ⟨2, _⟩ => show win0_2.index t (2 : Fin 3) * 16384 + 1 * n.val = n.val; omega)
  rw [hemb, result3_ix3]
  refine (pay_apply _ _ u r n).trans ?_
  unfold at3
  have hk : (fun (k : Fin 16) (n' : Fin 16384) => iblk m c 1 t (ix3 (0 : Fin 1) k n'))
      = headOf (V m c main_v1) (⟨win0_2.index t (0 : Fin 3), l0⟩ : Fin 8) (⟨win0_2.index t (1 : Fin 3) * 16 + r.val, by omega⟩ : Fin 128) :=
    funext fun k => funext fun n' => iblk1_apply m c t (ix3 (0 : Fin 1) k n') _
      (by show win0_2.index t (0 : Fin 3) = win0_1.index t (0 : Fin 3) * 1 + 1 * 0; omega)
      (by have := k.isLt
          show (win0_2.index t (1 : Fin 3) * 16 + r.val) / 16 * 16 + k.val = win0_1.index t (1 : Fin 3) * 16 + 1 * k.val; omega)
      (by show n'.val = win0_1.index t (2 : Fin 3) * 16384 + 1 * n'.val; omega)
  have hv : (fun (v : Fin 16) (n' : Fin 16384) => iblk m c 0 t (ix3 (0 : Fin 1) v n'))
      = headOf (V m c main_v0) (⟨win0_2.index t (0 : Fin 3), l0⟩ : Fin 8) (⟨win0_2.index t (1 : Fin 3) * 16 + r.val, by omega⟩ : Fin 128) :=
    funext fun k => funext fun n' => iblk0_apply m c t (ix3 (0 : Fin 1) k n') _
      (by show win0_2.index t (0 : Fin 3) = win0_0.index t (0 : Fin 3) * 1 + 1 * 0; omega)
      (by have := k.isLt
          show (win0_2.index t (1 : Fin 3) * 16 + r.val) / 16 * 16 + k.val = win0_0.index t (1 : Fin 3) * 16 + 1 * k.val; omega)
      (by show n'.val = win0_0.index t (2 : Fin 3) * 16384 + 1 * n'.val; omega)
  rw [hk, hv]
  refine congrArg (fun s => att _ _ s n) (Fin.ext ?_)
  show r.val = (win0_2.index t (1 : Fin 3) * 16 + r.val) % 16
  omega

/-- An index of the output array is in point `t`'s block iff each coordinate is in the block's range on its axis. -/
theorem mem_blk (t : Fin cfg0.N) (i : S8x128x16384.Idx) :
    i ∈ ((cfg0.win 2).blk t).view.set ↔ ∀ a : Fin 3, win0_2.index t a * S1x16x16384.size a ≤ (i a).val
      ∧ (i a).val < win0_2.index t a * S1x16x16384.size a + S1x16x16384.size a := by
  show i ∈ ((View.whole main_v2).slice (win0_2.rect t)).set ↔ _
  rw [View.set_slice_whole, Rect.mem_set_unit]
  exact Iff.rfl

/-- The blocks tile the output array: entry (b, c, n) is in the block of the point of head (b, c / 16). -/
theorem every_entry_written (i : S8x128x16384.Idx) :
    ∃ t : Fin cfg0.N, (cfg0.win 2).flush t = true ∧ i ∈ ((cfg0.win 2).blk t).view.set := by
  have h0 : (i 0).val < 8 := (i 0).isLt
  have h1 : (i 1).val < 128 := (i 1).isLt
  have h2 : (i 2).val < 16384 := (i 2).isLt
  obtain ⟨t, ht⟩ := idx_onto ⟨(i 0).val, h0⟩ ⟨(i 1).val / 16, by omega⟩
  have q0 : win0_2.index t (0 : Fin 3) = (i 0).val := congrFun ht 0
  have q1 : win0_2.index t (1 : Fin 3) = (i 1).val / 16 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 16384 ≤ (i 2).val ∧ (i 2).val < win0_2.index t (2 : Fin 3) * 16384 + 16384; omega

/-- THE OUTPUT ARRAY after the run. -/
theorem out_array (c : Dev nD) : (dats m 0 c).arrAt 2 cfg0.N = result3 (V m c main_v0) (V m c main_v1) :=
  (dats m 0 c).arrAt_eq_of_cover 2 (result3 (V m c main_v0) (V m c main_v1)) (fun t _ => written_block m c t) every_entry_written

/-- The values array as the region finds it: the first argument viewed [8, 128, 16384]. -/
theorem V_main_v0 (c : Dev nD) : (V m c main_v0 : S8x128x16384.Idx → Elt Ideal .f32)
    = shapeCast S8x128x16384 (m ((c : Thread nD τ).loc main_arg0)) shapeCasts_S8x128x128x128_S8x128x16384 := by
  show StableHlo.after hostOps0 (fun b => m (c, b)) (Proc.devRef .tc main_v0) = _
  after_results
  rfl

/-- The keys array as the region finds it: the second argument viewed [8, 128, 16384]. -/
theorem V_main_v1 (c : Dev nD) : (V m c main_v1 : S8x128x16384.Idx → Elt Ideal .f32)
    = shapeCast S8x128x16384 (m ((c : Thread nD τ).loc main_arg1)) shapeCasts_S8x128x128x128_S8x128x16384 := by
  show StableHlo.after hostOps0 (fun b => m (c, b)) (Proc.devRef .tc main_v1) = _
  after_results
  rfl

/-- The result buffer after the host's last line: the output array viewed [8, 128, 128, 128]. -/
theorem tail_eq (c : Dev nD) : Pipeline.afterTail₀ cfgs (dats m) 0 (V0 m) [hostOps1] c main_v3
    = result (m ((c : Thread nD τ).loc main_arg0)) (m ((c : Thread nD τ).loc main_arg1)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = result3 (shapeCast S8x128x16384 (m ((c : Thread nD τ).loc main_arg0)) shapeCasts_S8x128x128x128_S8x128x16384)
          (shapeCast S8x128x16384 (m ((c : Thread nD τ).loc main_arg1)) shapeCasts_S8x128x128x128_S8x128x16384) :=
    (Pipeline.withArrays_arr spec0 launch0.win.arr_inj c _ _ 2).trans ((out_array m c).trans (by rw [V_main_v0, V_main_v1]))
  funext i
  show shapeCast S8x128x128x128 (Pipeline.withArrays (cfgs 0).spec c (V0 m c) (fun w => (dats m 0 c).arrAt w (cfgs 0).N)
    (Proc.devRef .tc main_v2)) shapeCasts_S8x128x16384_S8x128x128x128 i = _
  rw [e]
  rfl

/-- THE RUN, READ: the result buffer ends at `Cert.Attn.result` of the two arguments, which end unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.LibHostReduce4.lean ====
/-
  General lemmas, over the library only: the host's one-operand `stablehlo.reduce` with a `maximum` body over ONE axis
  of a rank-4 float array, at the ideal values, read at an index given by coordinates — the fold of `max` from the
  initial value over that axis's coordinates. Stated for the last axis (`hostMax4_axis3_apply`: an array [a, b, c, d]
  reduced to [a, b, c]) and for the one before it (`hostMax4_axis2_apply`: reduced to [a, b, d]), with the index the
  reduction inserts named by coordinates (`lift4_axis3`, `lift4_axis2`). jax's `softmax` over either of a batched
  matrix's two axes meets exactly these.
-/
import Idealize.ShloMosaic.PureOps.Ideal.Laws
import Idealize.ShloMosaic.Lib.ValueIdx

noncomputable section

namespace Idealize.ShloMosaic.HostReduce4

open Idealize.ShloMosaic Idealize.ShloMosaic.ValueIdx

variable {a b c d : ℕ}

/-- Reducing [a, b, c, d] along its last axis: the reduced index (i, j, k) with coordinate `n` put back is (i, j, k, n). -/
theorem lift4_axis3 (h : (⟨4, ![a, b, c, d]⟩ : Shape).Reduces [3] (⟨3, ![a, b, c]⟩ : Shape)) (i : Fin a) (j : Fin b) (k : Fin c)
    (n : Fin ((⟨4, ![a, b, c, d]⟩ : Shape).size 3)) : h.lift (ix3 i j k) n = ix4 i j k (⟨n.val, n.isLt⟩ : Fin d) := by
  funext e; apply Fin.ext
  fin_cases e <;> rfl

/-- Reducing [a, b, c, d] along axis 2: the reduced index (i, j, l) with coordinate `n` put back is (i, j, n, l). -/
theorem lift4_axis2 (h : (⟨4, ![a, b, c, d]⟩ : Shape).Reduces [2] (⟨3, ![a, b, d]⟩ : Shape)) (i : Fin a) (j : Fin b) (l : Fin d)
    (n : Fin ((⟨4, ![a, b, c, d]⟩ : Shape).size 2)) : h.lift (ix3 i j l) n = ix4 i j (⟨n.val, n.isLt⟩ : Fin c) l := by
  funext e; apply Fin.ext
  fin_cases e <;> rfl

variable {φ : FTy} {u : Shape}

/-- The host's maximum over the last axis, at (i, j, k): the fold of `max` from the initial value over the entries (i, j, k, ·). -/
theorem hostMax4_axis3_apply (y : FVec Ideal ⟨4, ![a, b, c, d]⟩ φ) (init : u.Idx → Ideal φ)
    (h' : (⟨4, ![a, b, c, d]⟩ : Shape).ReducesTo [3] (⟨3, ![a, b, c]⟩ : Shape))
    (h : (⟨4, ![a, b, c, d]⟩ : Shape).Reduces [3] (⟨3, ![a, b, c]⟩ : Shape)) (hu : 0 < u.numel) (i : Fin a) (j : Fin b) (k : Fin c) :
    Host.reduce FloatOps.maximumf y init h' hu (ix3 i j k)
      = (Finset.univ : Finset (Fin d)).fold max (init (Shape.Idx.first hu)) (fun n => y (ix4 i j k n)) := by
  refine (Host.reduce_eq_fold_single FloatOps.maximumf y init h' h hu (ix3 i j k)).trans ?_
  show (Finset.univ : Finset (Fin d)).fold max (init (Shape.Idx.first hu)) (y ∘ h.lift (ix3 i j k)) = _
  exact congrArg (fun f => Finset.fold max (init (Shape.Idx.first hu)) f (Finset.univ : Finset (Fin d)))
    (funext fun n => congrArg y (lift4_axis3 h i j k n))

/-- The host's maximum over axis 2, at (i, j, l): the fold of `max` from the initial value over the entries (i, j, ·, l). -/
theorem hostMax4_axis2_apply (y : FVec Ideal ⟨4, ![a, b, c, d]⟩ φ) (init : u.Idx → Ideal φ)
    (h' : (⟨4, ![a, b, c, d]⟩ : Shape).ReducesTo [2] (⟨3, ![a, b, d]⟩ : Shape))
    (h : (⟨4, ![a, b, c, d]⟩ : Shape).Reduces [2] (⟨3, ![a, b, d]⟩ : Shape)) (hu : 0 < u.numel) (i : Fin a) (j : Fin b) (l : Fin d) :
    Host.reduce FloatOps.maximumf y init h' hu (ix3 i j l)
      = (Finset.univ : Finset (Fin c)).fold max (init (Shape.Idx.first hu)) (fun n => y (ix4 i j n l)) := by
  refine (Host.reduce_eq_fold_single FloatOps.maximumf y init h' h hu (ix3 i j l)).trans ?_
  show (Finset.univ : Finset (Fin c)).fold max (init (Shape.Idx.first hu)) (y ∘ h.lift (ix3 i j l)) = _
  exact congrArg (fun f => Finset.fold max (init (Shape.Idx.first hu)) f (Finset.univ : Finset (Fin c)))
    (funext fun n => congrArg y (lift4_axis2 h i j l n))

end Idealize.ShloMosaic.HostReduce4

end
-- ==== Proof.RefValue.lean ====
/-
  The reference's result, read at an element, is `Cert.Attn.result` of its two arguments.

  The reference views each argument [8, 8, 16, 16384] (batch, head, channel, position), takes both softmaxes of the
  keys there — jax's `softmax`: the maximum over the axis (a reduce from −∞, then a `maximum` with −∞ again, which
  changes nothing), the exponential of the difference, the quotient by the sum —, contracts the positions of the
  first against the values and the key channels of that against the second, and views the result [8, 128, 128, 128].
  Stage by stage, at head (b, h), each array is the corresponding function of `Cert.Attn` of the head's key block
  `kk4 x1 b h` and value block `vv4 x0 b h` (the generated per-operation reads give each stage from its operands;
  the two maximum reductions, which they leave out, are read by LibHostReduce4). Last, head (b, h)'s blocks are
  channels 16 h … 16 h + 15 of the arguments viewed [8, 128, 16384], and entry (i0, i1, i2, i3) of the result is entry
  (i1 % 16, 128 i2 + i3) of head (i0, i1 / 16): row-major arithmetic.
-/
import proofs.«175915_j32469952757796_1_alg».proof.Proof.Gen.ReferenceIdeal.Read
import proofs.«175915_j32469952757796_1_alg».proof.Proof.LibHostReduce4
import proofs.«175915_j32469952757796_1_alg».proof.Proof.Attn

noncomputable section

namespace Cert.ReferenceIdeal.RefValue

open Cert.ReferenceIdeal Cert.ReferenceIdeal.Gen Cert.ReferenceIdeal.Read Idealize.ShloMosaic Idealize.ShloMosaic.ValueIdx
open Idealize.ShloMosaic.HostReduce4 Cert.Attn

variable (x0 x1 : (⟨S8x128x128x128, .f32⟩ : BufTy).Contents (Elt Ideal))

/-- Head (b, h)'s key block and value block, in the reference's [8, 8, 16, 16384] views. -/
def kk4 (b h : Fin 8) : Fin 16 → Fin 16384 → EReal := fun k n => val_main_v2 (F := Ideal) x1 (ix4 b h k n)
def vv4 (b h : Fin 8) : Fin 16 → Fin 16384 → EReal := fun v n => val_main_v3 (F := Ideal) x0 (ix4 b h v n)

/-! ## The reference's constants, and its two reductions' shape facts -/

theorem cst_neg (i : S_.Idx) : val_main_cst (F := Ideal) i = negInf := rfl
theorem cst0_neg (i : S_.Idx) : val_main_cst_0 (F := Ideal) i = negInf := rfl
theorem cst2_neg (i : S_.Idx) : val_main_cst_2 (F := Ideal) i = negInf := rfl
theorem cst3_neg (i : S_.Idx) : val_main_cst_3 (F := Ideal) i = negInf := rfl
theorem cst1_zero (i : S_.Idx) : val_main_cst_1 (F := Ideal) i = Ideal.ofBits .f32 0x00000000#32 := rfl
theorem cst4_zero (i : S_.Idx) : val_main_cst_4 (F := Ideal) i = Ideal.ofBits .f32 0x00000000#32 := rfl

theorem reduces_d3 : S8x8x16x16384.Reduces [3] S8x8x16 := by decide
theorem reduces_d2 : S8x8x16x16384.Reduces [2] S8x8x16384 := by decide

/-! ## The softmax along the positions -/

theorem v4_at (b h : Fin 8) (k : Fin 16) : val_main_v4 (F := Ideal) x1 (ix3 b h k) = rowMax (kk4 x1 b h) k := by
  unfold val_main_v4
  refine (hostMax4_axis3_apply (val_main_v2 (F := Ideal) x1) (val_main_cst (F := Ideal)) reducesTo_S8x8x16x16384_S8x8x16_d3
    reduces_d3 h_S_ b h k).trans ?_
  rw [cst_neg]
  rfl

theorem v6_at (b h : Fin 8) (k : Fin 16) : val_main_v6 (F := Ideal) x1 (ix3 b h k) = rowMax (kk4 x1 b h) k := by
  rw [val_main_v6_apply, val_main_v5_apply, cst0_neg, v4_at, Ideal.maximumf_def]
  exact max_negInf _

theorem v8_at (b h : Fin 8) (k : Fin 16) (n : Fin 16384) : val_main_v8 (F := Ideal) x1 (ix4 b h k n) = rowMax (kk4 x1 b h) k := by
  have e : idx_main_v7 (idx_main_v8 (ix4 b h k n)) = ix3 b h k := funext fun a => Fin.ext (by
    match a with | ⟨0, _⟩ => rfl | ⟨1, _⟩ => rfl | ⟨2, _⟩ => rfl)
  rw [val_main_v8_apply, val_main_v7_apply, e]
  exact v6_at x1 b h k

theorem v10_at (b h : Fin 8) (k : Fin 16) (n : Fin 16384) : val_main_v10 (F := Ideal) x1 (ix4 b h k n) = rowE (kk4 x1 b h) k n := by
  rw [val_main_v10_apply, val_main_v9_apply, v8_at, Ideal.hostUnary_exp_def, Ideal.subf_def]
  rfl

theorem v11_at (b h : Fin 8) (k : Fin 16) : val_main_v11 (F := Ideal) x1 (ix3 b h k) = ∑ n' : Fin 16384, rowE (kk4 x1 b h) k n' := by
  rw [val_main_v11_apply, cst1_zero, zero_word_add]
  refine Finset.sum_congr rfl fun n' _ => ?_
  have e : idx_main_v11 (ix3 b h k) n' = ix4 b h k n' := funext fun a => Fin.ext (by
    match a with | ⟨0, _⟩ => rfl | ⟨1, _⟩ => rfl | ⟨2, _⟩ => rfl | ⟨3, _⟩ => rfl)
  rw [e]
  exact v10_at x1 b h k n'

theorem v13_at (b h : Fin 8) (k : Fin 16) (n : Fin 16384) :
    val_main_v13 (F := Ideal) x1 (ix4 b h k n) = ∑ n' : Fin 16384, rowE (kk4 x1 b h) k n' := by
  have e : idx_main_v12 (idx_main_v13 (ix4 b h k n)) = ix3 b h k := funext fun a => Fin.ext (by
    match a with | ⟨0, _⟩ => rfl | ⟨1, _⟩ => rfl | ⟨2, _⟩ => rfl)
  rw [val_main_v13_apply, val_main_v12_apply, e]
  exact v11_at x1 b h k

theorem v14_at (b h : Fin 8) (k : Fin 16) (n : Fin 16384) : val_main_v14 (F := Ideal) x1 (ix4 b h k n) = keySm (kk4 x1 b h) k n := by
  rw [val_main_v14_apply, v10_at, v13_at, Ideal.hostDivf_def]
  rfl

/-! ## The softmax along the channels -/

theorem v15_at (b h : Fin 8) (n : Fin 16384) : val_main_v15 (F := Ideal) x1 (ix3 b h n) = colMax (kk4 x1 b h) n := by
  unfold val_main_v15
  refine (hostMax4_axis2_apply (val_main_v2 (F := Ideal) x1) (val_main_cst_2 (F := Ideal)) reducesTo_S8x8x16x16384_S8x8x16384_d2
    reduces_d2 h_S_ b h n).trans ?_
  rw [cst2_neg]
  rfl

theorem v17_at (b h : Fin 8) (n : Fin 16384) : val_main_v17 (F := Ideal) x1 (ix3 b h n) = colMax (kk4 x1 b h) n := by
  rw [val_main_v17_apply, val_main_v16_apply, cst3_neg, v15_at, Ideal.maximumf_def]
  exact max_negInf _

theorem v19_at (b h : Fin 8) (k : Fin 16) (n : Fin 16384) : val_main_v19 (F := Ideal) x1 (ix4 b h k n) = colMax (kk4 x1 b h) n := by
  have e : idx_main_v18 (idx_main_v19 (ix4 b h k n)) = ix3 b h n := funext fun a => Fin.ext (by
    match a with | ⟨0, _⟩ => rfl | ⟨1, _⟩ => rfl | ⟨2, _⟩ => rfl)
  rw [val_main_v19_apply, val_main_v18_apply, e]
  exact v17_at x1 b h n

theorem v21_at (b h : Fin 8) (k : Fin 16) (n : Fin 16384) : val_main_v21 (F := Ideal) x1 (ix4 b h k n) = colE (kk4 x1 b h) k n := by
  rw [val_main_v21_apply, val_main_v20_apply, v19_at, Ideal.hostUnary_exp_def, Ideal.subf_def]
  rfl

theorem v22_at (b h : Fin 8) (n : Fin 16384) : val_main_v22 (F := Ideal) x1 (ix3 b h n) = ∑ k' : Fin 16, colE (kk4 x1 b h) k' n := by
  rw [val_main_v22_apply, cst4_zero, zero_word_add]
  refine Finset.sum_congr rfl fun k' _ => ?_
  have e : idx_main_v22 (ix3 b h n) k' = ix4 b h k' n := funext fun a => Fin.ext (by
    match a with | ⟨0, _⟩ => rfl | ⟨1, _⟩ => rfl | ⟨2, _⟩ => rfl | ⟨3, _⟩ => rfl)
  rw [e]
  exact v21_at x1 b h k' n

theorem v24_at (b h : Fin 8) (k : Fin 16) (n : Fin 16384) :
    val_main_v24 (F := Ideal) x1 (ix4 b h k n) = ∑ k' : Fin 16, colE (kk4 x1 b h) k' n := by
  have e : idx_main_v23 (idx_main_v24 (ix4 b h k n)) = ix3 b h n := funext fun a => Fin.ext (by
    match a with | ⟨0, _⟩ => rfl | ⟨1, _⟩ => rfl | ⟨2, _⟩ => rfl)
  rw [val_main_v24_apply, val_main_v23_apply, e]
  exact v22_at x1 b h n

theorem v25_at (b h : Fin 8) (k : Fin 16) (n : Fin 16384) : val_main_v25 (F := Ideal) x1 (ix4 b h k n) = qrySm (kk4 x1 b h) k n := by
  rw [val_main_v25_apply, v21_at, v24_at, Ideal.hostDivf_def]
  rfl

/-! ## The two contractions -/

theorem v26_at (b h : Fin 8) (k v : Fin 16) : val_main_v26 (F := Ideal) x0 x1 (ix4 b h k v) = ctx (kk4 x1 b h) (vv4 x0 b h) k v := by
  rw [val_main_v26_apply]
  unfold ctx
  refine Finset.sum_congr rfl fun n' _ => ?_
  have el : lidx_main_v26 (ix4 b h k v) n' = ix4 b h k n' := funext fun a => Fin.ext (by
    match a with | ⟨0, _⟩ => rfl | ⟨1, _⟩ => rfl | ⟨2, _⟩ => rfl | ⟨3, _⟩ => rfl)
  have er : ridx_main_v26 (ix4 b h k v) n' = ix4 b h v n' := funext fun a => Fin.ext (by
    match a with | ⟨0, _⟩ => rfl | ⟨1, _⟩ => rfl | ⟨2, _⟩ => rfl | ⟨3, _⟩ => rfl)
  rw [el, er, v14_at]; rfl

theorem v27_at (b h : Fin 8) (v : Fin 16) (n : Fin 16384) : val_main_v27 (F := Ideal) x0 x1 (ix4 b h v n) = att (kk4 x1 b h) (vv4 x0 b h) v n := by
  rw [val_main_v27_apply]
  unfold att
  refine Finset.sum_congr rfl fun k _ => ?_
  have el : lidx_main_v27 (ix4 b h v n) k = ix4 b h k v := funext fun a => Fin.ext (by
    match a with | ⟨0, _⟩ => rfl | ⟨1, _⟩ => rfl | ⟨2, _⟩ => rfl | ⟨3, _⟩ => rfl)
  have er : ridx_main_v27 (ix4 b h v n) k = ix4 b h k n := funext fun a => Fin.ext (by
    match a with | ⟨0, _⟩ => rfl | ⟨1, _⟩ => rfl | ⟨2, _⟩ => rfl | ⟨3, _⟩ => rfl)
  rw [el, er, v26_at, v25_at]

/-! ## The heads' blocks in the [8, 128, 16384] views, and the result -/

/-- Head (b, c / 16)'s key block is channels 16 (c / 16) … of the keys viewed [8, 128, 16384]. -/
theorem kk4_eq (b : Fin 8) (c : Fin 128) (h : Fin 8) (hh : h.val = c.val / 16) :
    kk4 x1 b h = headOf (shapeCast ⟨3, ![8, 128, 16384]⟩ x1 casts43) b c := by
  funext k n
  unfold kk4 headOf
  rw [val_main_v2_apply]
  refine congrArg (val_main_v1 (F := Ideal) x1) (funext fun a => Fin.ext ?_)
  have hb := b.isLt; have hk := k.isLt; have hn := n.isLt; have hc := c.isLt; have hh' := h.isLt
  match a with
  | ⟨0, _⟩ => show (((b.val * 8 + h.val) * 16 + k.val) * 16384 + n.val) / 2097152 = b.val; omega
  | ⟨1, _⟩ => show (((b.val * 8 + h.val) * 16 + k.val) * 16384 + n.val) / 16384 % 128 = c.val / 16 * 16 + k.val; omega
  | ⟨2, _⟩ => show (((b.val * 8 + h.val) * 16 + k.val) * 16384 + n.val) % 16384 = n.val; omega

theorem vv4_eq (b : Fin 8) (c : Fin 128) (h : Fin 8) (hh : h.val = c.val / 16) :
    vv4 x0 b h = headOf (shapeCast ⟨3, ![8, 128, 16384]⟩ x0 casts43) b c := by
  funext k n
  unfold vv4 headOf
  rw [val_main_v3_apply]
  refine congrArg (val_main_v0 (F := Ideal) x0) (funext fun a => Fin.ext ?_)
  have hb := b.isLt; have hk := k.isLt; have hn := n.isLt; have hc := c.isLt; have hh' := h.isLt
  match a with
  | ⟨0, _⟩ => show (((b.val * 8 + h.val) * 16 + k.val) * 16384 + n.val) / 2097152 = b.val; omega
  | ⟨1, _⟩ => show (((b.val * 8 + h.val) * 16 + k.val) * 16384 + n.val) / 16384 % 128 = c.val / 16 * 16 + k.val; omega
  | ⟨2, _⟩ => show (((b.val * 8 + h.val) * 16 + k.val) * 16384 + n.val) % 16384 = n.val; omega

/-- THE REFERENCE'S RESULT is `Cert.Attn.result` of its arguments. -/
theorem result_eq : val_main_v28 (F := Ideal) x0 x1 = result x0 x1 := by
  funext i
  obtain ⟨i0, i1, i2, i3, rfl⟩ : ∃ (i0 : Fin 8) (i1 : Fin 128) (i2 : Fin 128) (i3 : Fin 128), i = ix4 i0 i1 i2 i3 :=
    ⟨i 0, i 1, i 2, i 3, eq_ix4 i⟩
  have h0 := i0.isLt; have h1 := i1.isLt; have h2 := i2.isLt; have h3 := i3.isLt
  -- the position inside the head, and the head
  obtain ⟨n, hn⟩ : ∃ n : Fin 16384, n.val = i2.val * 128 + i3.val := ⟨⟨i2.val * 128 + i3.val, by omega⟩, rfl⟩
  obtain ⟨h, hh⟩ : ∃ h : Fin 8, h.val = i1.val / 16 := ⟨⟨i1.val / 16, by omega⟩, rfl⟩
  have e4 : idx_main_v28 (ix4 i0 i1 i2 i3) = ix4 i0 h (sub i1) n := funext fun a => Fin.ext (by
    match a with
    | ⟨0, _⟩ => show (((i0.val * 128 + i1.val) * 128 + i2.val) * 128 + i3.val) / 2097152 = i0.val; omega
    | ⟨1, _⟩ => show (((i0.val * 128 + i1.val) * 128 + i2.val) * 128 + i3.val) / 262144 % 8 = h.val; omega
    | ⟨2, _⟩ => show (((i0.val * 128 + i1.val) * 128 + i2.val) * 128 + i3.val) / 16384 % 16 = i1.val % 16; omega
    | ⟨3, _⟩ => show (((i0.val * 128 + i1.val) * 128 + i2.val) * 128 + i3.val) % 16384 = n.val; omega)
  rw [val_main_v28_apply, e4, v27_at, kk4_eq x1 i0 i1 h hh, vv4_eq x0 i0 i1 h hh]
  unfold result
  refine ((shapeCast_apply _ casts34 (ix4 i0 i1 i2 i3) (ix3 i0 i1 n) ?_).trans (result3_ix3 _ _ i0 i1 n)).symm
  rw [Shape.rowMajor_val_three, Shape.rowMajor_val_four]
  show (i0.val * 128 + i1.val) * 16384 + n.val = ((i0.val * 128 + i1.val) * 128 + i2.val) * 128 + i3.val
  omega

end Cert.ReferenceIdeal.RefValue

end
-- ==== Proof.lean ====
/- The proof of `Cert.Claim`: a cross-attention head kernel against its jnp reference, over the extended reals.

   Both programs view the two arguments [8, 128, 128, 128] as 64 heads of 16 channels by 16384 positions, take the
   softmax of a head's keys along the positions and along the channels, contract the first against the head's
   values over the positions and that context against the second over the key channels. The kernel does one head
   per grid point on [16, 16384] blocks; the reference does all heads at once on [8, 8, 16, 16384] arrays. At the
   ideal values both are the one function `Cert.Attn.result` (Proof/Attn.lean), term by term: the same maxima
   from −∞, the same exponentials and quotients, the same `Fin`-indexed sums — no law of arithmetic beyond
   `max (−∞) y = y` and `0 + y = y` is used, and the precondition is never opened.
     Proof/Body.lean         the kernel body's stored block, entry by entry, is the head's attended value
     Proof/KernelValue.lean  the blocks tile the output array, the host's views before and after: the kernel's run
     Proof/RefValue.lean     the reference's stages at an index, and its result as the same function
     Proof/LibKeepdims.lean, Proof/LibHostReduce4.lean   general reads of reductions with the axis kept
   The three frames are the generated ones (the reference's is its generated run with the result dropped), and the
   idealization rewrote nothing, so `preserves` is trivial. -/
import proofs.«175915_j32469952757796_1_alg».proof.Defs
import proofs.«175915_j32469952757796_1_alg».proof.Proof.Gen.Kernel
import proofs.«175915_j32469952757796_1_alg».proof.Proof.Gen.Kernel.Skeleton
import proofs.«175915_j32469952757796_1_alg».proof.Proof.Gen.Kernel.Launch
import proofs.«175915_j32469952757796_1_alg».proof.Proof.Gen.Kernel.Points
import proofs.«175915_j32469952757796_1_alg».proof.Proof.Gen.Kernel.Frame
import proofs.«175915_j32469952757796_1_alg».proof.Proof.Gen.KernelIdeal
import proofs.«175915_j32469952757796_1_alg».proof.Proof.Gen.KernelIdeal.Skeleton
import proofs.«175915_j32469952757796_1_alg».proof.Proof.Gen.KernelIdeal.Launch
import proofs.«175915_j32469952757796_1_alg».proof.Proof.Gen.KernelIdeal.Points
import proofs.«175915_j32469952757796_1_alg».proof.Proof.Gen.KernelIdeal.Frame
import proofs.«175915_j32469952757796_1_alg».proof.Proof.Gen.ReferenceIdeal
import proofs.«175915_j32469952757796_1_alg».proof.Proof.Gen.ReferenceIdeal.Run
import proofs.«175915_j32469952757796_1_alg».proof.Proof.Gen.ReferenceIdeal.Read
import proofs.«175915_j32469952757796_1_alg».proof.Proof.Gen.Pre_finite_inputs
import proofs.«175915_j32469952757796_1_alg».proof.Proof.KernelValue
import proofs.«175915_j32469952757796_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, both programs end with `Cert.Attn.result` of them. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show _ = Cert.Attn.result _ _
  rw [Cert.ReferenceIdeal.Read.val_main_v28_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
